-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S2000x128 : Shape := ⟨2, ![2000, 128]⟩
abbrev S1600000x128 : Shape := ⟨2, ![1600000, 128]⟩
abbrev S100000x1 : Shape := ⟨2, ![100000, 1]⟩
abbrev S2000x1 : Shape := ⟨2, ![2000, 1]⟩
abbrev S1x128 : Shape := ⟨2, ![1, 128]⟩

abbrev nBuf : Space → Nat
  | .hbm => 65
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000, .f32⟩
  | .hbm, ⟨63, _⟩ => ⟨S100000x1, .f32⟩
  | .hbm, ⟨64, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x1, .f32⟩
  | .local _ .vmem, ⟨10, _⟩ => ⟨S2000x1, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_cst : Ref sig .tc := ⟨.hbm, 69, rfl⟩
abbrev main_call1_v0 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The kernel program's run, with its result array named.

  The program is two launches among stretches of host operations.  Its run ends with every buffer that is not a
  staging buffer holding the contents of the last boundary of the fold through the program: each stretch of host
  operations applied to the contents before it, each launch's arrays replaced by what its write-backs leave.  Read at
  the result buffer this says that the result is the second launch's output array after its last grid point; read at
  the five argument buffers it says that they end as launched.
-/
import proofs.«164168_j70317204570425_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in every final state each buffer that is not a
    staging buffer holds the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run, read at the result and at the arguments: the result array is the second launch's output array after its
    last grid point, from the contents the launch was entered with; the argument arrays end as launched. -/
theorem run_out : θ_run defs (onTc (τ := τ) (main (F := F))) ⟨m, fun _ => 0, ρ⟩ (fun r => ∀ c : Dev nD,
      r.2.mem ((c.tc : Thread nD τ).loc main_v46) = (dat1 (V5 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v46 (by decide))).trans (W6_arr m ρ c 4),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)
    (run_boundary m ρ)

end Cert.KernelIdeal.Hand

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Epilogue.lean ====
/-
  The second launch: self-loop term, bias and ReLU, row block by row block.

  Grid point `t` of the second launch loads rows `2000 t … 2000 t + 1999` of the aggregated neighbour features, of
  the projected features and of the column of squared normalisers, and the whole bias vector, and writes back the same
  rows of the output: entry `(r, q)` is `max ((agg (r, q) + col (r, 0) * h (r, q)) + bias q, 0)` — the column
  stretched along the features, the bias along the rows, a widening of the stored features the identity on the
  extended reals.  Every entry depends only on entries of the same row, and the fifty row blocks tile the array, so
  after the last point the output is that one function of the four whole arrays.
-/
import proofs.«164168_j70317204570425_2_alg».proof.Proof.Gen.KernelIdeal.Frame
import proofs.«164168_j70317204570425_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The layer's output from the aggregated neighbour features `agg`, the projected features `h`, the column `col` of
    squared normalisers and the bias: `max ((agg + col · h) + bias, 0)`, entry by entry. -/
def layerOut (agg h : S100000x128.Idx → EReal) (col : S100000x1.Idx → EReal) (bias : S128.Idx → EReal) :
    S100000x128.Idx → EReal :=
  fun i => max ((agg i + col (ix2 (n0 := 100000) (n1 := 1) (i 0) 0) * h i) + bias (ix1 (n := 128) (i 1)))
    (Ideal.ofBits .f32 0x00000000#32)

theorem layerOut_apply (agg h : S100000x128.Idx → EReal) (col : S100000x1.Idx → EReal) (bias : S128.Idx → EReal)
    (r : Fin 100000) (q : Fin 128) :
    layerOut agg h col bias (ix2 r q)
      = max ((agg (ix2 r q) + col (ix2 r (0 : Fin 1)) * h (ix2 r q)) + bias (ix1 q)) (Ideal.ofBits .f32 0x00000000#32) := rfl

private theorem zoff2 : (![0, 0] : Fin 2 → Nat) = fun _ => 0 := funext fun a => by fin_cases a <;> rfl
private theorem zoff1 : (![0] : Fin 1 → Nat) = fun _ => 0 := funext fun a => by fin_cases a; rfl

/-- One point's stored block at `(p, q)`, from the blocks it loaded: the bias `b`, the column `d`, the projected
    features `hb` and the aggregated features `a`. -/
theorem epilogue_block_apply (b : Vec Ideal S128 .f32) (d : Vec Ideal S2000x1 .f32) (hb : Vec Ideal S2000x128 .bf16)
    (a : Vec Ideal S2000x128 .f32) (p : Fin 2000) (q : Fin 128) :
    k1_pay1 (F := Ideal) b d hb a (ix2 p q)
      = max ((a (ix2 p q) + d (ix2 p (0 : Fin 1)) * hb (ix2 p q)) + b (ix1 q)) (Ideal.ofBits .f32 0x00000000#32) := by
  unfold k1_pay1
  simp only [shapeCast_self]
  rw [maximumf_apply, addf_apply, addf_apply, mulf_apply, extf_apply, broadcast_apply,
    Cert.LibColumn.broadcastTo_a1_ab_apply, broadcastTo_1b_ab_apply, shapeCast_a_1a_apply]
  rfl

/-! ## The windows: which rows a block is -/

variable (V : (c : Dev nD) → (b : Ref sig .tc) → Buf (Elt Ideal) ((c : Thread nD τ).loc b))

/-- The second launch's index maps over its fifty points: every row-blocked window's block index is `(t, 0)`, the
    bias's `0`. -/
theorem epilogue_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The aggregated features' block at point `t` is rows `2000 t … 2000 t + 1999` of that array. -/
theorem agg_block_apply (c : Dev nD) (t : Fin cfg1.N) (y : S2000x128.Idx) (i : S100000x128.Idx)
    (h0 : (i 0).val = t.val * 2000 + (y 0).val) (h1 : (i 1).val = (y 1).val) :
    (iblk1 V c 0 t : Vec Ideal S2000x128 .f32) y = (V c main_v43 : S100000x128.Idx → EReal) i := by
  obtain ⟨e0, e1, -⟩ := epilogue_index t
  unfold iblk1
  rw [View.read_apply]
  show V c main_v43 _ = V c main_v43 _
  refine congrArg (V c main_v43) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The projected features' block at point `t` is the same rows of that array. -/
theorem feat_block_apply (c : Dev nD) (t : Fin cfg1.N) (y : S2000x128.Idx) (i : S100000x128.Idx)
    (h0 : (i 0).val = t.val * 2000 + (y 0).val) (h1 : (i 1).val = (y 1).val) :
    (iblk1 V c 1 t : Vec Ideal S2000x128 .bf16) y = (V c main_v29 : S100000x128.Idx → EReal) i := by
  obtain ⟨-, -, e0, e1, -⟩ := epilogue_index t
  unfold iblk1
  rw [View.read_apply]
  show V c main_v29 _ = V c main_v29 _
  refine congrArg (V c main_v29) ?_
  funext a
  apply Fin.ext
  match a with
  | ⟨0, _⟩ => show win1_1.index t (0 : Fin 2) * 2000 + 1 * (y 0).val = (i 0).val; rw [e0, h0]; omega
  | ⟨1, _⟩ => show win1_1.index t (1 : Fin 2) * 128 + 1 * (y 1).val = (i 1).val; rw [e1, h1]; omega

/-- The column's block at point `t` is the same rows of the column. -/
theorem col_block_apply (c : Dev nD) (t : Fin cfg1.N) (y : S2000x1.Idx) (i : S100000x1.Idx)
    (h0 : (i 0).val = t.val * 2000 + (y 0).val) (h1 : (i 1).val = (y 1).val) :
    (iblk1 V c 2 t : Vec Ideal S2000x1 .f32) y = (V c main_v45 : S100000x1.Idx → EReal) i := by
  obtain ⟨-, -, -, -, e0, e1, -⟩ := epilogue_index t
  unfold iblk1
  rw [View.read_apply]
  show V c main_v45 _ = V c main_v45 _
  refine congrArg (V c main_v45) ?_
  funext a
  apply Fin.ext
  match a with
  | ⟨0, _⟩ => show win1_2.index t (0 : Fin 2) * 2000 + 1 * (y 0).val = (i 0).val; rw [e0, h0]; omega
  | ⟨1, _⟩ => show win1_2.index t (1 : Fin 2) * 1 + 1 * (y 1).val = (i 1).val; rw [e1, h1]; omega

/-- The bias's block at every point is the whole bias. -/
theorem bias_block_apply (c : Dev nD) (t : Fin cfg1.N) (y : S128.Idx) :
    (iblk1 V c 3 t : Vec Ideal S128 .f32) y = (V c main_arg4 : S128.Idx → EReal) y := by
  obtain ⟨-, -, -, -, -, -, e0, -⟩ := epilogue_index t
  unfold iblk1
  rw [View.read_apply]
  show V c main_arg4 _ = V c main_arg4 _
  refine congrArg (V c main_arg4) ?_
  funext a
  apply Fin.ext
  match a with
  | ⟨0, _⟩ => show win1_3.index t (0 : Fin 1) * 128 + 1 * (y 0).val = (y 0).val; rw [e0]; omega

/-- WHAT POINT `t` WRITES BACK is block `t` of the layer's output of the four arrays the launch was entered with. -/
theorem epilogue_flushed (c : Dev nD) (t : Fin cfg1.N) :
    (dat1 V c).flushed 4 t
      = ((cfg1.win 4).blk t).view.read (Elt Ideal) (layerOut (V c main_v43) (V c main_v29) (V c main_v45) (V c main_arg4)) := by
  show (cfg1.win 4).cut (grid1.coords t) ((dat1 V c).after 4 t) = _
  rw [after1_4]
  unfold out1_4
  rw [View.canon_unit_zero zoff2]
  simp only [View.ld_unit_zero (S := S2000x128) zoff2, View.ld_unit_zero (S := S2000x1) zoff2, View.ld_unit_zero (S := S128) zoff1]
  obtain ⟨-, -, -, -, -, -, -, e0, e1⟩ := epilogue_index t
  funext j
  obtain ⟨p, q, rfl⟩ : ∃ (p : Fin 2000) (q : Fin 128), j = ix2 p q := ⟨j 0, j 1, eq_ix2 j⟩
  have ht : t.val < 50 := by have := t.isLt; have hN : cfg1.N = 50 := N_1; omega
  have hr : t.val * 2000 + p.val < 100000 := by have := p.isLt; omega
  show k1_pay1 (F := Ideal) (iblk1 V c 3 t) (iblk1 V c 2 t) (iblk1 V c 1 t) (iblk1 V c 0 t) (ix2 p q)
    = layerOut (V c main_v43) (V c main_v29) (V c main_v45) (V c main_arg4) (((cfg1.win 4).blk t).view.emb (ix2 p q))
  have he : ((cfg1.win 4).blk t).view.emb (ix2 p q) = ix2 (⟨t.val * 2000 + p.val, hr⟩ : Fin 100000) q := by
    funext a
    apply Fin.ext
    match a with
    | ⟨0, _⟩ => show win1_4.index t (0 : Fin 2) * 2000 + 1 * p.val = t.val * 2000 + p.val; rw [e0]; omega
    | ⟨1, _⟩ => show win1_4.index t (1 : Fin 2) * 128 + 1 * q.val = q.val; rw [e1]; omega
  rw [he, layerOut_apply, epilogue_block_apply,
    agg_block_apply V c t (ix2 p q) (ix2 ⟨t.val * 2000 + p.val, hr⟩ q) rfl rfl,
    feat_block_apply V c t (ix2 p q) (ix2 ⟨t.val * 2000 + p.val, hr⟩ q) rfl rfl,
    col_block_apply V c t (ix2 p (0 : Fin 1)) (ix2 ⟨t.val * 2000 + p.val, hr⟩ (0 : Fin 1)) rfl rfl,
    bias_block_apply V c t (ix1 q)]

/-- An index of the output is in point `t`'s block iff each coordinate is in the block's range. -/
theorem epilogue_mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v46).slice (win1_4.rect t)).set ↔ _
  rw [View.set_slice_whole, Rect.mem_set_unit]
  exact Iff.rfl

/-- The fifty row blocks cover the output: row `r` is in the block of point `r / 2000`. -/
theorem epilogue_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, -, e0, e1⟩ := epilogue_index t
  have e0' : win1_4.index t (0 : Fin 2) = (i 0).val / 2000 := e0
  refine ⟨t, flush1_4 t, ?_⟩
  rw [epilogue_mem_blk]
  intro a
  match a with
  | ⟨0, _⟩ => show win1_4.index t (0 : Fin 2) * 2000 ≤ (i 0).val ∧ (i 0).val < win1_4.index t (0 : Fin 2) * 2000 + 2000; rw [e0']; omega
  | ⟨1, _⟩ => show win1_4.index t (1 : Fin 2) * 128 ≤ (i 1).val ∧ (i 1).val < win1_4.index t (1 : Fin 2) * 128 + 128; rw [e1]; omega

/-- THE OUTPUT after the second launch: the layer's output of the four arrays the launch was entered with. -/
theorem epilogue_final (c : Dev nD) :
    (dat1 V c).arrAt 4 cfg1.N = layerOut (V c main_v43) (V c main_v29) (V c main_v45) (V c main_arg4) :=
  (dat1 V c).arrAt_eq_of_cover 4 (layerOut (V c main_v43) (V c main_v29) (V c main_v45) (V c main_arg4))
    (fun t _ => epilogue_flushed V c t) epilogue_cover

end Cert.KernelIdeal.Hand

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«164168_j70317204570425_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.Project.lean ====
/-
  The first launch: the projection, row block by row block, is the whole product.

  Grid point `t` of the first launch multiplies rows `2000 t … 2000 t + 1999` of the node features by the whole
  weight matrix into a zero accumulator and writes the result back as rows `2000 t … 2000 t + 1999` of the
  projected features.  On the extended reals a change of float format is the identity, and both this product and the
  host's `dot_general` are, at `(r, q)`, the sum over `k` of `x (r, k) * w (k, q)`; a row of the product depends
  only on the same row of `x`.  The fifty row blocks tile the array, so after the last point the projected features
  are the host's product of the two whole arrays.
-/
import proofs.«164168_j70317204570425_2_alg».proof.Proof.Gen.KernelIdeal.Frame
import proofs.«164168_j70317204570425_2_alg».proof.Proof.Gen.ReferenceIdeal.Read
import proofs.«164168_j70317204570425_2_alg».proof.Proof.LibPlainDot
import proofs.«164168_j70317204570425_2_alg».proof.Proof.LibHostDot
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The host's product of the node features with the weight matrix, as the reference computes it. -/
abbrev hostProduct (X : S100000x128.Idx → EReal) (W : S128x128.Idx → EReal) : S100000x128.Idx → EReal :=
  Cert.ReferenceIdeal.Read.val_main_v29 (F := Ideal) X W

theorem zero_offsets2 : (![0, 0] : Fin 2 → Nat) = fun _ => 0 := funext fun a => by fin_cases a <;> rfl

/-- The host's product at `(r, q)`: the sum over `k` of `X (r, k) * W (k, q)`. -/
theorem hostProduct_apply (X : S100000x128.Idx → EReal) (W : S128x128.Idx → EReal) (r : Fin 100000) (q : Fin 128) :
    hostProduct X W (ix2 r q) = ∑ k : Fin 128, X (ix2 r k) * W (ix2 k q) := by
  unfold hostProduct Cert.ReferenceIdeal.Read.val_main_v29
  exact Cert.LibHostDot.hostDot_apply (R := 100000) (K := 128) (C := 128)
    Cert.ReferenceIdeal.Facts₀.dot_S100000x128_S128x128_S100000x128_1_0_0_1_n_n_wf none X W r q

/-- One point's stored block at `(p, q)`: the sum over `k` of `x (p, k) * w (k, q)` of the blocks it loaded. -/
theorem projected_block_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  exact Cert.LibPlainDot.matmul_zero_apply (R := 2000) (K := 128) (C := 128)
    Facts₀.dot_S2000x128_S128x128_S2000x128_1_0_0_1_n_n_wf none _ _ p q

/-- A row block of the features times the weights is the same rows of the whole product. -/
theorem projected_block_eq (X : S100000x128.Idx → EReal) (W : S128x128.Idx → EReal)
    (x : Vec Ideal S2000x128 .f32) (w : Vec Ideal S128x128 .f32) (p : Fin 2000) (q : Fin 128) (r : Fin 100000)
    (hx : ∀ k : Fin 128, x (ix2 p k) = X (ix2 r k)) (hw : ∀ k : Fin 128, w (ix2 k q) = W (ix2 k q)) :
    k0_pay1 (F := Ideal) x w (ix2 p q) = hostProduct X W (ix2 r q) := by
  rw [projected_block_apply, hostProduct_apply]
  exact Finset.sum_congr rfl fun k _ => by rw [hx k, hw k]

/-! ## The windows: which rows a block is -/

variable (V : (c : Dev nD) → (b : Ref sig .tc) → Buf (Elt Ideal) ((c : Thread nD τ).loc b))

/-- The first launch's index maps over its fifty points: the features' and the result's block index is `(t, 0)`,
    the weights' `(0, 0)`. -/
theorem project_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `2000 t … 2000 t + 1999` of the features. -/
theorem features_block_apply (c : Dev nD) (t : Fin cfg0.N) (y : S2000x128.Idx) (i : S100000x128.Idx)
    (h0 : (i 0).val = t.val * 2000 + (y 0).val) (h1 : (i 1).val = (y 1).val) :
    (iblk0 V c 0 t : Vec Ideal S2000x128 .f32) y = (V c main_arg0 : S100000x128.Idx → EReal) i := by
  obtain ⟨e0, e1, -⟩ := project_index t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem weights_block_apply (c : Dev nD) (t : Fin cfg0.N) (y : S128x128.Idx) :
    (iblk0 V c 1 t : Vec Ideal S128x128 .f32) y = (V c main_arg3 : S128x128.Idx → EReal) y := by
  obtain ⟨-, -, e0, e1, -⟩ := project_index t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- WHAT POINT `t` WRITES BACK is block `t` of the host's product of the two arrays the launch was entered with. -/
theorem project_flushed (c : Dev nD) (t : Fin cfg0.N) :
    (dat0 V c).flushed 2 t
      = ((cfg0.win 2).blk t).view.read (Elt Ideal) (hostProduct (V c main_arg0) (V c main_arg3)) := by
  show (cfg0.win 2).cut (grid0.coords t) ((dat0 V c).after 2 t) = _
  rw [after0_2]
  unfold out0_2
  rw [View.canon_unit_zero zero_offsets2]
  simp only [View.ld_unit_zero (S := S2000x128) zero_offsets2, View.ld_unit_zero (S := S128x128) zero_offsets2]
  obtain ⟨-, -, -, -, e0, e1⟩ := project_index t
  funext j
  obtain ⟨p, q, rfl⟩ : ∃ (p : Fin 2000) (q : Fin 128), j = ix2 p q := ⟨j 0, j 1, eq_ix2 j⟩
  have ht : t.val < 50 := by have := t.isLt; have hN : cfg0.N = 50 := N_0; omega
  have hr : t.val * 2000 + p.val < 100000 := by have := p.isLt; omega
  show k0_pay1 (F := Ideal) (iblk0 V c 0 t) (iblk0 V c 1 t) (ix2 p q)
    = hostProduct (V c main_arg0) (V c main_arg3) (((cfg0.win 2).blk t).view.emb (ix2 p q))
  have he : ((cfg0.win 2).blk t).view.emb (ix2 p q) = ix2 (⟨t.val * 2000 + p.val, hr⟩ : Fin 100000) q := by
    funext a
    apply Fin.ext
    match a with
    | ⟨0, _⟩ => show win0_2.index t (0 : Fin 2) * 2000 + 1 * p.val = t.val * 2000 + p.val; rw [e0]; omega
    | ⟨1, _⟩ => show win0_2.index t (1 : Fin 2) * 128 + 1 * q.val = q.val; rw [e1]; omega
  rw [he]
  refine projected_block_eq (V c main_arg0) (V c main_arg3) _ _ p q ⟨t.val * 2000 + p.val, hr⟩ (fun k => ?_) (fun k => ?_)
  · exact features_block_apply V c t (ix2 p k) (ix2 ⟨t.val * 2000 + p.val, hr⟩ k) rfl rfl
  · exact weights_block_apply V c t (ix2 k q)

/-- An index of the projected features is in point `t`'s block iff each coordinate is in the block's range. -/
theorem project_mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v29).slice (win0_2.rect t)).set ↔ _
  rw [View.set_slice_whole, Rect.mem_set_unit]
  exact Iff.rfl

/-- The fifty row blocks cover the array: row `r` is in the block of point `r / 2000`. -/
theorem project_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, e0, e1⟩ := project_index t
  have e0' : win0_2.index t (0 : Fin 2) = (i 0).val / 2000 := e0
  refine ⟨t, flush0_2 t, ?_⟩
  rw [project_mem_blk]
  intro a
  match a with
  | ⟨0, _⟩ => show win0_2.index t (0 : Fin 2) * 2000 ≤ (i 0).val ∧ (i 0).val < win0_2.index t (0 : Fin 2) * 2000 + 2000; rw [e0']; omega
  | ⟨1, _⟩ => show win0_2.index t (1 : Fin 2) * 128 ≤ (i 1).val ∧ (i 1).val < win0_2.index t (1 : Fin 2) * 128 + 128; rw [e1]; omega

/-- THE PROJECTED FEATURES after the first launch: the host's product of the features and the weights the launch was
    entered with. -/
theorem project_final (c : Dev nD) :
    (dat0 V c).arrAt 2 cfg0.N = hostProduct (V c main_arg0) (V c main_arg3) :=
  (dat0 V c).arrAt_eq_of_cover 2 (hostProduct (V c main_arg0) (V c main_arg3))
    (fun t _ => project_flushed V c t) project_cover

end Cert.KernelIdeal.Hand

end
-- ==== Proof.HostBetween.lean ====
/-
  What the second launch is entered with.

  Around its two launches the kernel program runs the reference's own host operations on the same arguments: the
  degree and its inverse square root per node, the normaliser per edge, and, once the projected features exist, the
  gather of the source rows, their scaling and the scatter-add into the target rows.  Each array the second launch
  reads is therefore the reference's own stage of the arguments — the aggregate, the product, the column of squared
  normalisers, the bias —, given that the first launch leaves the host's product (a widening of the gathered rows is
  the identity on the extended reals).  The shared stages are carried as the named functions they are; none is
  opened.
-/
import proofs.«164168_j70317204570425_2_alg».proof.Proof.Gen.KernelIdeal.Frame
import proofs.«164168_j70317204570425_2_alg».proof.Proof.Gen.ReferenceIdeal.Read
import proofs.«164168_j70317204570425_2_alg».proof.Proof.Project
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## Before the first launch -/

theorem entry0_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem entry0_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem entry0_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

/-- The edges' target rows. -/
theorem entry0_rows (c : Dev nD) :
    W3 m ρ c (Proc.devRef .tc main_v1) = val_main_v1 (F := Ideal) (m ((c : Thread nD τ).loc main_arg1)) := by
  show StableHlo.after hostOps0_2 (StableHlo.after hostOps0_1 (StableHlo.after hostOps0 (W0 m ρ c))) (Proc.devRef .tc main_v1) = _
  after_results_simp
  rfl

/-- The edges' source rows. -/
theorem entry0_cols (c : Dev nD) :
    W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

/-! ### The inverse square root of the degree: the degree's stretch, then the guarded select -/

/-- Whether a node's degree is positive. -/
theorem degree_pos (c : Dev nD) :
    W1 m ρ c (Proc.devRef .tc main_v10)
      = val_main_v10 (F := Ideal) (m ((c : Thread nD τ).loc main_arg1)) (m ((c : Thread nD τ).loc main_arg2)) := by
  show StableHlo.after hostOps0 (W0 m ρ c) (Proc.devRef .tc main_v10) = _
  after_results_simp
  rfl

/-- The inverse square root of a node's degree, unguarded. -/
theorem degree_rsqrt (c : Dev nD) :
    W1 m ρ c (Proc.devRef .tc main_v11)
      = val_main_v11 (F := Ideal) (m ((c : Thread nD τ).loc main_arg1)) (m ((c : Thread nD τ).loc main_arg2)) := by
  show StableHlo.after hostOps0 (W0 m ρ c) (Proc.devRef .tc main_v11) = _
  after_results_simp
  rfl

/-- The guard's other branch, zero. -/
theorem degree_zero (c : Dev nD) : W1 m ρ c (Proc.devRef .tc main_cst_2) = val_main_cst_2 (F := Ideal) := by
  show StableHlo.after hostOps0 (W0 m ρ c) (Proc.devRef .tc main_cst_2) = _
  after_results_simp
  rfl

/-- The guarded select, from any contents: where the degree is positive its inverse square root, zero elsewhere. -/
theorem guarded_select (Wm : Valuation τ sig (Elt Ideal)) :
    StableHlo.after hostOps0_1 Wm (Proc.devRef .tc main_v12)
      = select (Wm (Proc.devRef .tc main_v10)) (Wm (Proc.devRef .tc main_v11))
          (broadcastInDim S100000 ![] bcast_S_S100000 (id (Wm (Proc.devRef .tc main_cst_2)))) := by
  after_results_simp
  rfl

theorem mid_dinv (c : Dev nD) :
    W2 m ρ c (Proc.devRef .tc main_v12)
      = val_main_v12 (F := Ideal) (m ((c : Thread nD τ).loc main_arg1)) (m ((c : Thread nD τ).loc main_arg2)) := by
  show StableHlo.after hostOps0_1 (W1 m ρ c) (Proc.devRef .tc main_v12) = _
  rw [guarded_select (W1 m ρ c), degree_pos, degree_rsqrt, degree_zero]
  rfl

theorem mid_rows (c : Dev nD) :
    W2 m ρ c (Proc.devRef .tc main_v1) = val_main_v1 (F := Ideal) (m ((c : Thread nD τ).loc main_arg1)) := by
  show StableHlo.after hostOps0_1 (StableHlo.after hostOps0 (W0 m ρ c)) (Proc.devRef .tc main_v1) = _
  after_results_simp
  rfl

theorem mid_cols (c : Dev nD) :
    W2 m ρ c (Proc.devRef .tc main_v3) = val_main_v3 (F := Ideal) (m ((c : Thread nD τ).loc main_arg1)) := by
  show StableHlo.after hostOps0_1 (StableHlo.after hostOps0 (W0 m ρ c)) (Proc.devRef .tc main_v3) = _
  after_results_simp
  rfl

theorem mid_weights (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results_simp

/-- The inverse square root of each node's degree. -/
theorem entry0_dinv (c : Dev nD) :
    W3 m ρ c (Proc.devRef .tc main_v12)
      = val_main_v12 (F := Ideal) (m ((c : Thread nD τ).loc main_arg1)) (m ((c : Thread nD τ).loc main_arg2)) := by
  have h := mid_dinv m ρ c
  show StableHlo.after hostOps0_2 (W2 m ρ c) (Proc.devRef .tc main_v12) = _
  generalize W2 m ρ c = Wm at h ⊢
  after_results_simp
  exact h

/-- Each edge's normaliser: the two ends' inverse square roots times the edge's weight. -/
theorem entry0_norm (c : Dev nD) :
    W3 m ρ c (Proc.devRef .tc main_v28)
      = val_main_v28 (F := Ideal) (m ((c : Thread nD τ).loc main_arg1)) (m ((c : Thread nD τ).loc main_arg2)) := by
  have h1 := mid_rows m ρ c
  have h3 := mid_cols m ρ c
  have h12 := mid_dinv m ρ c
  have h2 := mid_weights m ρ c
  show StableHlo.after hostOps0_2 (W2 m ρ c) (Proc.devRef .tc main_v28) = _
  generalize W2 m ρ c = Wm at h1 h3 h12 h2 ⊢
  after_results_simp
  rw [h1, h3, h12, h2]
  rfl

/-! ## After the first launch -/

/-- The projected features the first launch leaves: the host's product of the features and the weights. -/
theorem exit0_features (c : Dev nD) :
    W4 m ρ c (Proc.devRef .tc main_v29)
      = hostProduct (m ((c : Thread nD τ).loc main_arg0)) (m ((c : Thread nD τ).loc main_arg3)) := by
  refine (W4_arr m ρ c 2).trans ((project_final (V3 m ρ) c).trans ?_)
  show hostProduct (W3 m ρ c (Proc.devRef .tc main_arg0)) (W3 m ρ c (Proc.devRef .tc main_arg3)) = _
  rw [entry0_arg0, entry0_arg3]

/-! ## The second launch's four arrays -/

theorem entry1_features (c : Dev nD) :
    V5 m ρ c main_v29 = hostProduct (m ((c : Thread nD τ).loc main_arg0)) (m ((c : Thread nD τ).loc main_arg3)) := by
  show StableHlo.after hostOps1 (W4 m ρ c) (Proc.devRef .tc main_v29) = _
  after_results_simp
  exact exit0_features m ρ c

theorem entry1_bias (c : Dev nD) : V5 m ρ c main_arg4 = m ((c : Thread nD τ).loc main_arg4) := by
  show StableHlo.after hostOps1 (W4 m ρ c) (Proc.devRef .tc main_arg4) = _
  after_results_simp
  rw [W4_of_ne m ρ c main_arg4 (by decide)]
  exact entry0_arg4 m ρ c

/-- The column of squared normalisers. -/
theorem entry1_column (c : Dev nD) :
    V5 m ρ c main_v45
      = val_main_v44 (F := Ideal) (m ((c : Thread nD τ).loc main_arg1)) (m ((c : Thread nD τ).loc main_arg2)) := by
  show StableHlo.after hostOps1 (W4 m ρ c) (Proc.devRef .tc main_v45) = _
  after_results_simp
  rw [W4_of_ne m ρ c main_v12 (by decide), entry0_dinv]
  rfl

/-- The aggregated neighbour features. -/
theorem entry1_aggregate (c : Dev nD) :
    V5 m ρ c main_v43
      = val_main_v42 (F := Ideal) (m ((c : Thread nD τ).loc main_arg0)) (m ((c : Thread nD τ).loc main_arg1))
          (m ((c : Thread nD τ).loc main_arg2)) (m ((c : Thread nD τ).loc main_arg3)) := by
  show StableHlo.after hostOps1 (W4 m ρ c) (Proc.devRef .tc main_v43) = _
  after_results_simp
  rw [W4_of_ne m ρ c main_v1 (by decide), W4_of_ne m ρ c main_v3 (by decide), W4_of_ne m ρ c main_v28 (by decide),
    entry0_rows, entry0_cols, entry0_norm, exit0_features]
  rfl

end Cert.KernelIdeal.Hand

end
-- ==== Proof.KernelValue.lean ====
/-
  The kernel program's result.

  The result array is the second launch's output after its last grid point; that is the layer's output of the four
  arrays the launch was entered with; and those are the reference's own aggregate, product and column of squared
  normalisers of the arguments, and the bias.  So the kernel program ends with the layer's output of the reference's
  stages of its arguments.
-/
import proofs.«164168_j70317204570425_2_alg».proof.Proof.KernelRun
import proofs.«164168_j70317204570425_2_alg».proof.Proof.Epilogue
import proofs.«164168_j70317204570425_2_alg».proof.Proof.HostBetween

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- The layer's output of the reference's stages of the argument arrays of the memory `m`. -/
def result (c : Dev nD) : S100000x128.Idx → EReal :=
  layerOut
    (val_main_v42 (F := Ideal) (m ((c : Thread nD τ).loc main_arg0)) (m ((c : Thread nD τ).loc main_arg1))
      (m ((c : Thread nD τ).loc main_arg2)) (m ((c : Thread nD τ).loc main_arg3)))
    (val_main_v29 (F := Ideal) (m ((c : Thread nD τ).loc main_arg0)) (m ((c : Thread nD τ).loc main_arg3)))
    (val_main_v44 (F := Ideal) (m ((c : Thread nD τ).loc main_arg1)) (m ((c : Thread nD τ).loc main_arg2)))
    (m ((c : Thread nD τ).loc main_arg4))

/-- The second launch's output array after its last point is `result`. -/
theorem output_eq_result (c : Dev nD) : (dat1 (V5 m ρ) c).arrAt 4 cfg1.N = result m c := by
  rw [epilogue_final (V5 m ρ) c, entry1_aggregate, entry1_features, entry1_column, entry1_bias]
  rfl

/-- The kernel program's run: the result array ends at `result`, the arguments as launched. -/
theorem run_value : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (output_eq_result m ρ c), (h c).2⟩) (run_out m ρ)

end Cert.KernelIdeal.Hand

end
-- ==== Proof.RefTail.lean ====
/-
  The reference's last operations, read at an index.

  After the scatter-add that aggregates the neighbours, the reference multiplies the projected features by the
  column of squared normalisers stretched along the features, adds the aggregate, adds the bias stretched along the
  rows, and takes the maximum with zero.  At `(r, q)` that is `max ((agg (r, q) + col (r, 0) * h (r, q)) + bias q, 0)`:
  the layer's output of the reference's own aggregate, product and column.
-/
import proofs.«164168_j70317204570425_2_alg».proof.Proof.Epilogue
import proofs.«164168_j70317204570425_2_alg».proof.Proof.Gen.ReferenceIdeal.Read

set_option maxRecDepth 16384

noncomputable section

namespace Cert.KernelIdeal.Hand

open Idealize.ShloMosaic Idealize.ShloMosaic.ValueIdx
open Cert.ReferenceIdeal.Read

/-- The reference's result is the layer's output of its aggregate, its product and its column of squared normalisers. -/
theorem reference_tail (x0 : Cert.ReferenceIdeal.S100000x128.Idx → EReal) (x1 : Cert.ReferenceIdeal.S2x1600000.Idx → BitVec 32)
    (x2 : Cert.ReferenceIdeal.S1600000.Idx → EReal) (x3 : Cert.ReferenceIdeal.S128x128.Idx → EReal)
    (x4 : Cert.ReferenceIdeal.S128.Idx → EReal) :
    val_main_v51 (F := Ideal) x0 x1 x2 x3 x4
      = layerOut (val_main_v42 (F := Ideal) x0 x1 x2 x3) (val_main_v29 (F := Ideal) x0 x3) (val_main_v44 (F := Ideal) x1 x2) x4 := by
  funext i
  obtain ⟨r, q, rfl⟩ : ∃ (r : Fin 100000) (q : Fin 128), i = ix2 r q := ⟨i 0, i 1, eq_ix2 i⟩
  have ecol : idx_main_v45 (ix2 r q) = ix2 r (0 : Fin 1) :=
    funext fun a => Fin.ext (by match a with | ⟨0, _⟩ => rfl | ⟨1, _⟩ => rfl)
  have ebias : idx_main_v48 (idx_main_v49 (ix2 r q)) = ix1 q :=
    funext fun a => Fin.ext (by match a with | ⟨0, _⟩ => rfl)
  rw [layerOut_apply, val_main_v51_apply, val_main_v50_apply, val_main_v47_apply, val_main_v46_apply, val_main_v45_apply,
    val_main_v49_apply, val_main_v48_apply, val_main_call1_v0_apply, val_main_call1_cst_apply, ecol, ebias]
  rfl

end Cert.KernelIdeal.Hand

end
-- ==== Proof.lean ====
/-
  A graph-convolution layer: `relu (D^(-1/2) (A + I) D^(-1/2) (X W) + b)`.

  Both programs compute, from the same edge list and edge weights, each node's degree (the sum of the weights of its
  edges, plus one for the self-loop), its inverse square root, and each edge's normaliser; both gather the projected
  features `X W` at the edges' sources, scale them, and scatter-add them into the edges' targets; both add the
  self-loop term (the squared inverse square root times the node's own projected features) and the bias, in that
  order, and take the maximum with zero.  The kernel program does the projection in one tiled launch (fifty blocks of
  two thousand rows, the weights whole, operands and result narrowed to bf16) and the last step in another; the host
  operations in between are the reference's own.

  On the extended reals a change of float format is the identity and a product into a zero accumulator is the same sum
  over the contracted axis as the host's `dot_general`; a row of the product depends only on the same row of `X`, and
  an entry of the last step only on entries of its own row.  So the tiled launches leave the reference's own arrays,
  and no law of arithmetic beyond that is used: the two programs apply the same operations in the same order to equal
  values.  The precondition is not needed.

  `Proof/Project.lean`: the first launch leaves the host's product.  `Proof/Epilogue.lean`: the second launch leaves
  the layer's output of the four arrays it reads.  `Proof/HostBetween.lean`: those four arrays are the reference's own
  stages of the arguments.  `Proof/KernelRun.lean`, `Proof/KernelValue.lean`: the kernel program's run with its result
  named.  `Proof/RefTail.lean`: the reference's last operations at an index.  The reference's run and its stages are
  the generated modules `Gen/ReferenceIdeal/Run.lean` and `Read.lean`; the frames of the two kernel programs are the
  generated `Gen/Kernel/Frame.lean` and `Gen/KernelIdeal/Frame.lean`.
-/
import proofs.«164168_j70317204570425_2_alg».proof.Defs
import proofs.«164168_j70317204570425_2_alg».proof.Proof.Gen.Kernel
import proofs.«164168_j70317204570425_2_alg».proof.Proof.Gen.Kernel.Skeleton
import proofs.«164168_j70317204570425_2_alg».proof.Proof.Gen.Kernel.Launch
import proofs.«164168_j70317204570425_2_alg».proof.Proof.Gen.Kernel.Points
import proofs.«164168_j70317204570425_2_alg».proof.Proof.Gen.Kernel.Frame
import proofs.«164168_j70317204570425_2_alg».proof.Proof.Gen.KernelIdeal
import proofs.«164168_j70317204570425_2_alg».proof.Proof.Gen.KernelIdeal.Skeleton
import proofs.«164168_j70317204570425_2_alg».proof.Proof.Gen.KernelIdeal.Launch
import proofs.«164168_j70317204570425_2_alg».proof.Proof.Gen.KernelIdeal.Points
import proofs.«164168_j70317204570425_2_alg».proof.Proof.Gen.KernelIdeal.Frame
import proofs.«164168_j70317204570425_2_alg».proof.Proof.Gen.ReferenceIdeal
import proofs.«164168_j70317204570425_2_alg».proof.Proof.Gen.Pre_finite_inputs
import proofs.«164168_j70317204570425_2_alg».proof.Proof.Gen.ReferenceIdeal.Run
import proofs.«164168_j70317204570425_2_alg».proof.Proof.Gen.ReferenceIdeal.Read
import proofs.«164168_j70317204570425_2_alg».proof.Proof.KernelValue
import proofs.«164168_j70317204570425_2_alg».proof.Proof.RefTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output of the reference's stages of the (agreeing) arguments. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v51_eq, Cert.KernelIdeal.Hand.reference_tail, e0, e1, e2, e3, e4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
